-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S256 : Shape := ⟨1, ![256]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S2x2048x4096 .f32) (main_arg1 : IVec S16384x4096 32) (main_arg2 : FVec F S16384 .f32) (main_arg3 : FVec F S256 .f32) (main_arg4 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S2x2048x4096 : Shape := ⟨3, ![2, 2048, 4096]⟩
abbrev S16384x4096 : Shape := ⟨2, ![16384, 4096]⟩
abbrev S16384 : Shape := ⟨1, ![16384]⟩
abbrev S256 : Shape := ⟨1, ![256]⟩
abbrev S67108864 : Shape := ⟨1, ![67108864]⟩
abbrev S_ : Shape := ⟨0, ![]⟩
abbrev S67108864x1 : Shape := ⟨2, ![67108864, 1]⟩
abbrev S4096x4096 : Shape := ⟨2, ![4096, 4096]⟩
abbrev S1x16384 : Shape := ⟨2, ![1, 16384]⟩
abbrev S4096x16384 : Shape := ⟨2, ![4096, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S2x2048x16384 : Shape := ⟨3, ![2, 2048, 16384]⟩

abbrev nBuf : Space → Nat
  | .hbm => 23
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384, .f32⟩
  | .hbm, ⟨3, _⟩ => ⟨S256, .f32⟩
  | .hbm, ⟨4, _⟩ => ⟨S16384, .f32⟩
  | .hbm, ⟨5, _⟩ => ⟨S67108864, .i32⟩
  | .hbm, ⟨6, _⟩ => ⟨S_, .i32⟩
  | .hbm, ⟨7, _⟩ => ⟨S67108864, .i32⟩
  | .hbm, ⟨8, _⟩ => ⟨S67108864, .i1⟩
  | .hbm, ⟨9, _⟩ => ⟨S_, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864x1, .i32⟩
  | .hbm, ⟨14, _⟩ => ⟨S67108864, .f32⟩
  | .hbm, ⟨15, _⟩ => ⟨S16384x4096, .f32⟩
  | .hbm, ⟨16, _⟩ => ⟨S16384x4096, .bf16⟩
  | .hbm, ⟨17, _⟩ => ⟨S4096x4096, .f32⟩
  | .hbm, ⟨18, _⟩ => ⟨S4096x4096, .bf16⟩
  | .hbm, ⟨19, _⟩ => ⟨S1x16384, .f32⟩
  | .hbm, ⟨20, _⟩ => ⟨S1x16384, .f32⟩
  | .hbm, ⟨21, _⟩ => ⟨S4096x16384, .f32⟩
  | .hbm, ⟨22, _⟩ => ⟨S2x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16384x4096_S67108864 : S16384x4096.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S16384x4096 : S67108864.ShapeCasts S16384x4096
  bitsLt_bf16_f32 : FTy.bits .bf16 < FTy.bits .f32
  shapeCasts_S2x2048x4096_S4096x4096 : S2x2048x4096.ShapeCasts S4096x4096
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S4096x16384_S2x2048x16384 : S4096x16384.ShapeCasts S2x2048x16384
  gather_S256_S67108864x1_S67108864_n_0_n_n_0_1_1_wf : GatherDims.WF S256 S67108864x1 S67108864 [] [0] [] [0] [] 1 ![1]
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x16384.size a
  hwx0_4 : ∀ i : grid0.Coords, EltTy.bits .f32 = 32 ∨ (Rect.block (s := S4096x16384) S1024x512.size (cc0_transform_4 i) (hinb0_4 i)).WholeWords (EltTy.packing .f32)

variable [Facts₀]

def gather_S256_S67108864x1_S67108864_n_0_n_n_0_1_1 : GatherDims S256 S67108864x1 S67108864 where
  offsetDims := []
  collapsedSliceDims := [0]
  operandBatchingDims := []
  startIndicesBatchingDims := []
  startIndexMap := [0]
  indexVectorDim := 1
  sliceSizes := ![1]
  wf := gather_S256_S67108864x1_S67108864_n_0_n_n_0_1_1_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v11) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S256 : Shape := ⟨1, ![256]⟩
abbrev S67108864 : Shape := ⟨1, ![67108864]⟩
abbrev S_ : Shape := ⟨0, ![]⟩
abbrev S67108864x1 : Shape := ⟨2, ![67108864, 1]⟩
abbrev S16384x1 : Shape := ⟨2, ![16384, 1]⟩
abbrev S2x2048x16384 : Shape := ⟨3, ![2, 2048, 16384]⟩
abbrev S1x1x16384 : Shape := ⟨3, ![1, 1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384, .f32⟩
  | .hbm, ⟨3, _⟩ => ⟨S256, .f32⟩
  | .hbm, ⟨4, _⟩ => ⟨S16384, .f32⟩
  | .hbm, ⟨5, _⟩ => ⟨S67108864, .i32⟩
  | .hbm, ⟨6, _⟩ => ⟨S_, .i32⟩
  | .hbm, ⟨7, _⟩ => ⟨S67108864, .i32⟩
  | .hbm, ⟨8, _⟩ => ⟨S67108864, .i1⟩
  | .hbm, ⟨9, _⟩ => ⟨S_, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864x1, .i32⟩
  | .hbm, ⟨14, _⟩ => ⟨S67108864, .f32⟩
  | .hbm, ⟨15, _⟩ => ⟨S16384x4096, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S2x2048x16384, .f32⟩
  | .hbm, ⟨20, _⟩ => ⟨S1x1x16384, .f32⟩
  | .hbm, ⟨21, _⟩ => ⟨S2x2048x16384, .f32⟩
  | .hbm, ⟨22, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S16384x4096_S67108864 : S16384x4096.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S16384x4096 : S67108864.ShapeCasts S16384x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  gather_S256_S67108864x1_S67108864_n_0_n_n_0_1_1_wf : GatherDims.WF S256 S67108864x1 S67108864 [] [0] [] [0] [] 1 ![1]
  dot_S2x2048x4096_S16384x4096_S2x2048x16384_2_1_01_0_n_n_wf : DotDims.WF S2x2048x4096 S16384x4096 S2x2048x16384 [2] [1] [0, 1] [0] [] []

variable [Facts₀]

def gather_S256_S67108864x1_S67108864_n_0_n_n_0_1_1 : GatherDims S256 S67108864x1 S67108864 where
  offsetDims := []
  collapsedSliceDims := [0]
  operandBatchingDims := []
  startIndicesBatchingDims := []
  startIndexMap := [0]
  indexVectorDim := 1
  sliceSizes := ![1]
  wf := gather_S256_S67108864x1_S67108864_n_0_n_n_0_1_1_wf
def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.FiniteInputs.lean ====
/-
  The precondition says that every entry of each float argument is a real number.

  The printed precondition is the conjunction of four tests, one per float argument, each of the form
  "every entry x satisfies |x| < +∞". A conjunction that is true has every conjunct true; an all-reduction by
  "and" that is true met only true entries; and an extended real whose absolute value is below +∞ is a real.
-/
import proofs.«171381_j90589450207298_2_alg».proof.Pre_finite_inputs
import Idealize.ShloMosaic.Lib.ReduceAll
import Idealize.ShloMosaic.Lib.ValueIdx
import proofs.«171381_j90589450207298_2_alg».proof.Proof.LibReal

noncomputable section

namespace Cert.FiniteInputs

open Idealize.ShloMosaic Cert.LibReal Cert.Pre_finite_inputs

instance : Subsingleton S_.Idx := ⟨fun a b => funext fun d => d.elim0⟩

/-- Where the precondition's test is all ones, the four float arguments hold real numbers only. -/
theorem real_of_pre [Cert.Pre_finite_inputs.Facts] (x0 : FVec Ideal S2x2048x4096 .f32) (x1 : IVec S16384x4096 32)
    (x2 : FVec Ideal S16384 .f32) (x3 : FVec Ideal S256 .f32) (x4 : FVec Ideal S16384 .f32)
    (h : Cert.Pre_finite_inputs.fn (F := Ideal) x0 x1 x2 x3 x4 = fun _ => 1#1) :
    RealVec x0 ∧ RealVec x2 ∧ RealVec x3 ∧ RealVec x4 := by
  have h0 := congrFun h ValueIdx.ix0
  dsimp only [Cert.Pre_finite_inputs.fn, Cert.Pre_finite_inputs.fn_part1] at h0
  obtain ⟨h123, r4⟩ := IntOp.andi_eq_one.1 h0
  obtain ⟨h12, r3⟩ := IntOp.andi_eq_one.1 h123
  obtain ⟨r0, r2⟩ := IntOp.andi_eq_one.1 h12
  refine ⟨realVec_of_finite_test x0 fun i => ?_, realVec_of_finite_test x2 fun i => ?_,
    realVec_of_finite_test x3 fun i => ?_, realVec_of_finite_test x4 fun i => ?_⟩
  · exact Host.reduce_andi_all _ _ _ _ _ r0 i
  · exact Host.reduce_andi_all _ _ _ _ _ r2 i
  · exact Host.reduce_andi_all _ _ _ _ _ r3 i
  · exact Host.reduce_andi_all _ _ _ _ _ r4 i

end Cert.FiniteInputs

end
-- ==== Proof.ScaledLinear.lean ====
/-
  A linear layer whose weight matrix is a table of codes, each row of it scaled by one number.

  For an input x[b, s, k], codes w[o, k], one scale a[o] per output feature and a bias v[o], the layer's output at
  (b, s, o) is
      (Σ_k x[b, s, k] · w[o, k]) · a[o] + v[o].
  The same number is obtained when every code is scaled before the sum, Σ_k x[b, s, k] · (w[o, k] · a[o]) + v[o]:
  over the real numbers a factor common to every term leaves a finite sum. On the extended reals that step fails at
  the infinities, so it is stated for real entries.
-/
import Idealize.ShloMosaic.PureOps.Ideal
import Idealize.ShloMosaic.Lib.ValueIdx
import proofs.«171381_j90589450207298_2_alg».proof.Proof.LibReal

noncomputable section

namespace Cert.ScaledLinear

open Idealize.ShloMosaic Idealize.ShloMosaic.ValueIdx Cert.LibReal

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor common to every term of a finite sum of products of reals leaves the sum:
    Σ_k x_k · (w_k · a) = (Σ_k x_k · w_k) · a. -/
theorem sum_mul_scaled {n : ℕ} (x w : Fin n → EReal) (a : EReal) (hx : ∀ k, IsReal (x k)) (hw : ∀ k, IsReal (w k))
    (ha : IsReal a) : ∑ k : Fin n, x k * (w k * a) = (∑ k : Fin n, x k * w k) * a := by
  obtain ⟨a', rfl⟩ := ha
  choose x' hx' using hx
  choose w' hw' using hw
  have h1 : ∀ k, x k * (w k * (a' : EReal)) = ((x' k * (w' k * a') : ℝ) : EReal) := fun k => by
    rw [hx' k, hw' k, ← EReal.coe_mul, ← EReal.coe_mul]
  have h2 : ∀ k, x k * w k = ((x' k * w' k : ℝ) : EReal) := fun k => by
    rw [hx' k, hw' k, ← EReal.coe_mul]
  rw [Finset.sum_congr rfl fun k _ => h1 k, Finset.sum_congr rfl fun k _ => h2 k, ← coe_sum, ← coe_sum, ← EReal.coe_mul,
    Finset.sum_mul]
  exact congrArg _ (Finset.sum_congr rfl fun k _ => by ring)

/-- The layer's output at batch `b`, position `s`, output feature `o`: the inner product of the input row with the codes
    of feature `o`, scaled once by that feature's scale, plus its bias. -/
def entry (x : (⟨3, ![2, 2048, 4096]⟩ : Shape).Idx → EReal) (w : (⟨2, ![16384, 4096]⟩ : Shape).Idx → EReal)
    (a v : (⟨1, ![16384]⟩ : Shape).Idx → EReal) (b : Fin 2) (s : Fin 2048) (o : Fin 16384) : EReal :=
  (∑ k : Fin 4096, x (ix3 b s k) * w (ix2 o k)) * a (ix1 o) + v (ix1 o)

/-- The layer's output as an array over (b, s, o). -/
def out (x : (⟨3, ![2, 2048, 4096]⟩ : Shape).Idx → EReal) (w : (⟨2, ![16384, 4096]⟩ : Shape).Idx → EReal)
    (a v : (⟨1, ![16384]⟩ : Shape).Idx → EReal) : (⟨3, ![2, 2048, 16384]⟩ : Shape).Idx → EReal :=
  fun i => entry x w a v (i 0) (i 1) (i 2)

/-- With every code scaled before the sum the entry is the same, when the input row, the codes of the feature and its
    scale are real. -/
theorem entry_eq_scaled_first (x : (⟨3, ![2, 2048, 4096]⟩ : Shape).Idx → EReal) (w : (⟨2, ![16384, 4096]⟩ : Shape).Idx → EReal)
    (a v : (⟨1, ![16384]⟩ : Shape).Idx → EReal) (hx : ∀ i, IsReal (x i)) (hw : ∀ i, IsReal (w i)) (ha : ∀ i, IsReal (a i))
    (b : Fin 2) (s : Fin 2048) (o : Fin 16384) :
    (∑ k : Fin 4096, x (ix3 b s k) * (w (ix2 o k) * a (ix1 o))) + v (ix1 o) = entry x w a v b s o := by
  unfold entry
  rw [sum_mul_scaled (fun k => x (ix3 b s k)) (fun k => w (ix2 o k)) (a (ix1 o)) (fun k => hx _) (fun k => hw _) (ha _)]

end Cert.ScaledLinear

end
-- ==== Proof.RefValue.lean ====
/-
  The reference computes the scaled linear layer.

  The reference gathers the table of codes, multiplies each code by its row's scale, takes the product of the input
  with that scaled table over the last axis of each, and adds the bias: at (b, s, o) it is
      Σ_k x[b, s, k] · (w[o, k] · a[o]) + v[o].
  Every entry of the gathered table is an entry of the code book, so it is real when the code book is; with real
  inputs and scales the scale leaves the sum, which gives the layer's entry as specified.
-/
import proofs.«171381_j90589450207298_2_alg».proof.Proof.Gen.ReferenceIdeal.Read
import proofs.«171381_j90589450207298_2_alg».proof.Proof.ScaledLinear
import proofs.«171381_j90589450207298_2_alg».proof.Proof.LibReal

noncomputable section

namespace Cert.ReferenceIdeal.RefValue

open Cert.ReferenceIdeal Cert.ReferenceIdeal.Read Idealize.ShloMosaic Idealize.ShloMosaic.ValueIdx Cert.LibReal

/-- Every entry of the gathered table of codes is an entry of the code book: real when the code book is. -/
theorem table_real (x1 : (⟨S16384x4096, .i32⟩ : BufTy).Contents (Elt Ideal)) (x3 : (⟨S256, .f32⟩ : BufTy).Contents (Elt Ideal))
    (h3 : RealVec (φ := .f32) x3) : RealVec (φ := .f32) (val_main_v8 (F := Ideal) x1 x3) := by
  unfold val_main_v8 val_main_v7
  exact (RealVec.gather h3 _ _).shapeCast _

/-- The reference's result is the scaled linear layer of the input, the gathered table, the scales and the bias. -/
theorem result_eq (x0 : (⟨S2x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S256, .f32⟩ : BufTy).Contents (Elt Ideal))
    (x4 : (⟨S16384, .f32⟩ : BufTy).Contents (Elt Ideal))
    (h0 : RealVec (φ := .f32) x0) (h2 : RealVec (φ := .f32) x2) (h3 : RealVec (φ := .f32) x3) :
    val_main_v15 (F := Ideal) x0 x1 x2 x3 x4 = Cert.ScaledLinear.out x0 (val_main_v8 (F := Ideal) x1 x3) x2 x4 := by
  funext i
  obtain ⟨b, s, o, rfl⟩ : ∃ (b : Fin 2) (s : Fin 2048) (o : Fin 16384), i = ix3 b s o := ⟨i 0, i 1, i 2, eq_ix3 i⟩
  have el : ∀ k : Fin 4096, lidx_main_v12 (ix3 b s o) k = ix3 b s k := fun k => funext fun a => Fin.ext (by
    match a with
    | ⟨0, _⟩ => rfl
    | ⟨1, _⟩ => rfl
    | ⟨2, _⟩ => rfl)
  have er : ∀ k : Fin 4096, ridx_main_v12 (ix3 b s o) k = ix2 o k := fun k => funext fun a => Fin.ext (by
    match a with
    | ⟨0, _⟩ => rfl
    | ⟨1, _⟩ => rfl)
  have e4 : idx_main_v13 (idx_main_v14 (ix3 b s o)) = ix1 o := funext fun a => Fin.ext (by
    match a with
    | ⟨0, _⟩ => rfl)
  have e2 : ∀ k : Fin 4096, idx_main_v9 (idx_main_v10 (ix2 o k)) = ix1 o := fun k => funext fun a => Fin.ext (by
    match a with
    | ⟨0, _⟩ => rfl)
  have e11 : ∀ k : Fin 4096, val_main_v11 (F := Ideal) x1 x2 x3 (ix2 o k) = val_main_v8 (F := Ideal) x1 x3 (ix2 o k) * x2 (ix1 o) :=
    fun k => by
      rw [val_main_v11_apply, val_main_v10_apply, val_main_v9_apply, e2 k]
      rfl
  rw [val_main_v15_apply, val_main_v12_apply, val_main_v14_apply, val_main_v13_apply, e4]
  simp only [el, er, e11]
  exact Cert.ScaledLinear.entry_eq_scaled_first x0 (val_main_v8 (F := Ideal) x1 x3) x2 x4 h0 (table_real x1 x3 h3) h2 b s o

end Cert.ReferenceIdeal.RefValue

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KernelBlock.lean ====
/-
  What the kernel's body computes on one block.

  At a grid point the body holds 1024 rows of the input (each of 4096 entries), the codes of 512 output features (each
  of 4096 entries), and those features' scales and biases as rows of 512. It stores, at row p and column q of its block,
      (Σ_k X[p, k] · W[q, k]) · A[0, q] + B[0, q]:
  a product of rows with rows into a zero accumulator, each column then scaled and shifted.
-/
import proofs.«171381_j90589450207298_2_alg».proof.Proof.Gen.KernelIdeal.Skeleton
import proofs.«171381_j90589450207298_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.LibLayout

/-- The product's left operand index keeps the output's row. -/
theorem lhs_row (j : S1024x512.Idx) (k : dot_S1024x4096_S512x4096_S1024x512_1_1_0_0_n_n.contr.Idx) :
    (dot_S1024x4096_S512x4096_S1024x512_1_1_0_0_n_n.lhsIdx j k 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- The product's right operand index takes the output's column as its row. -/
theorem rhs_row (j : S1024x512.Idx) (k : dot_S1024x4096_S512x4096_S1024x512_1_1_0_0_n_n.contr.Idx) :
    (dot_S1024x4096_S512x4096_S1024x512_1_1_0_0_n_n.rhsIdx j k 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- The stored block at row `p`, column `q`. -/
theorem payload_apply (X : FVec Ideal S1024x4096 .bf16) (W : FVec Ideal S512x4096 .bf16) (A B : FVec Ideal S1x512 .f32)
    (p : Fin 1024) (q : Fin 512) :
    k0_pay1 (F := Ideal) X W A B (ix2 p q)
      = (∑ k : Fin 4096, X (ix2 p k) * W (ix2 q k)) * A (ix2 (0 : Fin 1) q) + B (ix2 (0 : Fin 1) q) := by
  unfold k0_pay1
  simp only [shapeCast_self]
  refine (addf_apply _ _ _).trans ?_
  refine congrArg₂ (· + ·) ((mulf_apply _ _ _).trans (congrArg₂ (· * ·) ?_ ?_)) ?_
  · exact matmul_rows_rows_apply dot_S1024x4096_S512x4096_S1024x512_1_1_0_0_n_n rfl rfl rfl rfl lhs_row rhs_row none X W p q
  · exact broadcastTo_1b_ab_apply A _ p q
  · exact broadcastTo_1b_ab_apply B _ p q

end Cert.KernelIdeal.Block

end
-- ==== Proof.KernelGrid.lean ====
/-
  From the blocks the grid's points write to the whole array.

  The grid has 4 × 32 points. Point (i, j) reads rows 1024·i … 1024·i + 1023 of the input, the codes of output features
  512·j … 512·j + 511 with their scales and biases, and writes the block of rows 1024·i … and columns 512·j … of a
  4096 × 16384 array. Each block it writes is the restriction to those rows and columns of one function of the whole
  arrays,
      R[r, o] = (Σ_k X[r, k] · W[o, k]) · A[0, o] + B[0, o],
  and the 128 blocks tile the array (row r lies in block row r / 1024, column o in block column o / 512): after the grid
  the array holds R.
-/
import proofs.«171381_j90589450207298_2_alg».proof.Proof.Gen.KernelIdeal.Frame
import proofs.«171381_j90589450207298_2_alg».proof.Proof.KernelBlock
import Idealize.ShloMosaic.Lib.Pipeline.Value
import Idealize.ShloMosaic.Lib.ValueIdx
import Idealize.ShloMosaic.PureOps.Ideal

set_option maxRecDepth 16384

noncomputable section

namespace Cert.KernelIdeal.Grid

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The whole 4096 × 16384 array as one function of the input rows, the table of codes and the rows of scales and biases. -/
def rows (X : FVec Ideal S4096x4096 .bf16) (W : FVec Ideal S16384x4096 .bf16) (A B : FVec Ideal S1x16384 .f32) :
    S4096x16384.Idx → EReal :=
  fun i => (∑ k : Fin 4096, X (ix2 (i 0) k) * W (ix2 (i 1) k)) * A (ix2 (0 : Fin 1) (i 1)) + B (ix2 (0 : Fin 1) (i 1))

/-- What a point stores, at an entry of its block, is `rows` at the array entry the block puts it at — when the point's
    four input blocks are the whole arrays read at the block's rows (`r0` the block row) and columns (`c0` the block
    column). -/
theorem block_entry (X0 : FVec Ideal S1024x4096 .bf16) (X1 : FVec Ideal S512x4096 .bf16) (X2 X3 : FVec Ideal S1x512 .f32)
    (X : FVec Ideal S4096x4096 .bf16) (W : FVec Ideal S16384x4096 .bf16) (A B : FVec Ideal S1x16384 .f32)
    (r0 c0 : Nat) (y : S1024x512.Idx) (i : S4096x16384.Idx)
    (hr : (i 0).val = r0 * 1024 + (y 0).val) (ho : (i 1).val = c0 * 512 + (y 1).val)
    (h0 : ∀ (p : Fin 1024) (k : Fin 4096) (r' : Fin 4096), r'.val = r0 * 1024 + p.val → X0 (ix2 p k) = X (ix2 r' k))
    (h1 : ∀ (q : Fin 512) (k : Fin 4096) (o' : Fin 16384), o'.val = c0 * 512 + q.val → X1 (ix2 q k) = W (ix2 o' k))
    (h2 : ∀ (q : Fin 512) (o' : Fin 16384), o'.val = c0 * 512 + q.val → X2 (ix2 (0 : Fin 1) q) = A (ix2 (0 : Fin 1) o'))
    (h3 : ∀ (q : Fin 512) (o' : Fin 16384), o'.val = c0 * 512 + q.val → X3 (ix2 (0 : Fin 1) q) = B (ix2 (0 : Fin 1) o')) :
    k0_pay1 (F := Ideal) X0 X1 X2 X3 y = rows X W A B i := by
  obtain ⟨p, q, rfl⟩ : ∃ (p : Fin 1024) (q : Fin 512), y = ix2 p q := ⟨y 0, y 1, eq_ix2 y⟩
  obtain ⟨r, o, rfl⟩ : ∃ (r : Fin 4096) (o : Fin 16384), i = ix2 r o := ⟨i 0, i 1, eq_ix2 i⟩
  rw [Cert.KernelIdeal.Block.payload_apply]
  show _ = (∑ k : Fin 4096, X (ix2 r k) * W (ix2 o k)) * A (ix2 (0 : Fin 1) o) + B (ix2 (0 : Fin 1) o)
  rw [h2 q o ho, h3 q o ho]
  exact congrArg (fun S => S * A (ix2 (0 : Fin 1) o) + B (ix2 (0 : Fin 1) o))
    (Finset.sum_congr rfl fun k _ => by rw [h0 p k r hr, h1 q k o ho])

/-- The printed index maps over the grid: the input rows move with the output's block row, the codes, scales and biases
    with its block column, and nothing else moves. -/
theorem idx_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = win0_4.index t (1 : Fin 2)
    ∧ win0_4.index t (0 : Fin 2) ≤ 3 ∧ win0_4.index t (1 : Fin 2) ≤ 31 :=
  (by decide +kernel : ∀ t : Fin grid0.N, _)

/-- Every block of the 4 × 32 tiling is some point's. -/
theorem idx_onto : ∀ (q0 : Fin 4) (q1 : Fin 32), ∃ t : Fin cfg0.N, win0_4.index t = ![q0.val, q1.val] :=
  (by decide +kernel : ∀ (q0 : Fin 4) (q1 : Fin 32), ∃ t : Fin grid0.N, win0_4.index t = ![q0.val, q1.val])

/-- The input window's block at a point is the rows of the input its block row names. -/
theorem iblk_rows (c : Dev nD) (t : Fin cfg0.N) (y : S1024x4096.Idx) (i : S4096x4096.Idx)
    (h0 : (i 0).val = win0_0.index t (0 : Fin 2) * 1024 + (y 0).val)
    (h1 : (i 1).val = win0_0.index t (1 : Fin 2) * 4096 + (y 1).val) :
    (iblk m c 0 t : FVec Ideal S1024x4096 .bf16) y = (V m c main_v11 : FVec Ideal S4096x4096 .bf16) i := by
  unfold iblk
  rw [View.read_apply]
  show V m c main_v11 _ = V m c main_v11 _
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 4096 + 1 * (y 1).val = (i 1).val; omega

/-- The table window's block at a point is the rows of the table its block row names. -/
theorem iblk_table (c : Dev nD) (t : Fin cfg0.N) (y : S512x4096.Idx) (i : S16384x4096.Idx)
    (h0 : (i 0).val = win0_1.index t (0 : Fin 2) * 512 + (y 0).val)
    (h1 : (i 1).val = win0_1.index t (1 : Fin 2) * 4096 + (y 1).val) :
    (iblk m c 1 t : FVec Ideal S512x4096 .bf16) y = (V m c main_v9 : FVec Ideal S16384x4096 .bf16) i := by
  unfold iblk
  rw [View.read_apply]
  show V m c main_v9 _ = V m c main_v9 _
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- The scales window's block at a point is the columns of the row of scales its block column names. -/
theorem iblk_scales (c : Dev nD) (t : Fin cfg0.N) (y : S1x512.Idx) (i : S1x16384.Idx)
    (h0 : (i 0).val = win0_2.index t (0 : Fin 2) * 1 + (y 0).val)
    (h1 : (i 1).val = win0_2.index t (1 : Fin 2) * 512 + (y 1).val) :
    (iblk m c 2 t : FVec Ideal S1x512 .f32) y = (V m c main_v12 : FVec Ideal S1x16384 .f32) i := by
  unfold iblk
  rw [View.read_apply]
  show V m c main_v12 _ = V m c main_v12 _
  refine congrArg _ (funext fun a => Fin.ext ?_)
  match a with
  | ⟨0, _⟩ => show win0_2.index t (0 : Fin 2) * 1 + 1 * (y 0).val = (i 0).val; omega
  | ⟨1, _⟩ => show win0_2.index t (1 : Fin 2) * 512 + 1 * (y 1).val = (i 1).val; omega

/-- The biases window's block at a point is the columns of the row of biases its block column names. -/
theorem iblk_biases (c : Dev nD) (t : Fin cfg0.N) (y : S1x512.Idx) (i : S1x16384.Idx)
    (h0 : (i 0).val = win0_3.index t (0 : Fin 2) * 1 + (y 0).val)
    (h1 : (i 1).val = win0_3.index t (1 : Fin 2) * 512 + (y 1).val) :
    (iblk m c 3 t : FVec Ideal S1x512 .f32) y = (V m c main_v13 : FVec Ideal S1x16384 .f32) i := by
  unfold iblk
  rw [View.read_apply]
  show V m c main_v13 _ = V m c main_v13 _
  refine congrArg _ (funext fun a => Fin.ext ?_)
  match a with
  | ⟨0, _⟩ => show win0_3.index t (0 : Fin 2) * 1 + 1 * (y 0).val = (i 0).val; omega
  | ⟨1, _⟩ => show win0_3.index t (1 : Fin 2) * 512 + 1 * (y 1).val = (i 1).val; omega

/-- The whole array the grid leaves, of the arrays the grid finds. -/
abbrev result (c : Dev nD) : S4096x16384.Idx → EReal :=
  rows (V m c main_v11) (V m c main_v9) (V m c main_v12) (V m c main_v13)

/-- What point `t` writes back is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero zero_offsets]
  simp only [View.ld_unit_zero (S := S1024x4096) zero_offsets, View.ld_unit_zero (S := S512x4096) zero_offsets,
    View.ld_unit_zero (S := S1x512) zero_offsets]
  obtain ⟨e00, e01, e10, e11, e20, e21, e30, e31, b0, b1⟩ := idx_facts t
  funext j
  rw [View.read_apply]
  show k0_pay1 (F := Ideal) (iblk m c 0 t) (iblk m c 1 t) (iblk m c 2 t) (iblk m c 3 t) j
    = result m c (((cfg0.win 4).blk t).view.emb j)
  refine block_entry _ _ _ _ _ _ _ _ (win0_4.index t (0 : Fin 2)) (win0_4.index t (1 : Fin 2)) j _ ?_ ?_ ?_ ?_ ?_ ?_
  · show win0_4.index t (0 : Fin 2) * 1024 + 1 * (j 0).val = win0_4.index t (0 : Fin 2) * 1024 + (j 0).val
    omega
  · show win0_4.index t (1 : Fin 2) * 512 + 1 * (j 1).val = win0_4.index t (1 : Fin 2) * 512 + (j 1).val
    omega
  · intro p k r' hr'
    exact iblk_rows m c t (ix2 p k) (ix2 r' k)
      (by show r'.val = win0_0.index t (0 : Fin 2) * 1024 + p.val; omega)
      (by show k.val = win0_0.index t (1 : Fin 2) * 4096 + k.val; omega)
  · intro q k o' ho'
    exact iblk_table m c t (ix2 q k) (ix2 o' k)
      (by show o'.val = win0_1.index t (0 : Fin 2) * 512 + q.val; omega)
      (by show k.val = win0_1.index t (1 : Fin 2) * 4096 + k.val; omega)
  · intro q o' ho'
    exact iblk_scales m c t (ix2 (0 : Fin 1) q) (ix2 (0 : Fin 1) o')
      (by show (0 : Nat) = win0_2.index t (0 : Fin 2) * 1 + 0; omega)
      (by show o'.val = win0_2.index t (1 : Fin 2) * 512 + q.val; omega)
  · intro q o' ho'
    exact iblk_biases m c t (ix2 (0 : Fin 1) q) (ix2 (0 : Fin 1) o')
      (by show (0 : Nat) = win0_3.index t (0 : Fin 2) * 1 + 0; omega)
      (by show o'.val = win0_3.index t (1 : Fin 2) * 512 + q.val; omega)

/-- An entry of the array is in point `t`'s block iff each coordinate is in the block's range on its axis. -/
theorem mem_blk (t : Fin cfg0.N) (i : S4096x16384.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v14).slice (win0_4.rect t)).set ↔ _
  rw [View.set_slice_whole, Rect.mem_set_unit]
  exact Iff.rfl

/-- Every entry of the array is in the block of the point whose block row is r / 1024 and block column o / 512. -/
theorem cover (i : S4096x16384.Idx) : ∃ t : Fin cfg0.N, (cfg0.win 4).flush t = true ∧ i ∈ ((cfg0.win 4).blk t).view.set := by
  have hi0 : (i 0).val < 4096 := (i 0).isLt
  have hi1 : (i 1).val < 16384 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- After the grid the output array holds `result`. -/
theorem final (c : Dev nD) : (dats m 0 c).arrAt 4 cfg0.N = result m c :=
  (dats m 0 c).arrAt_eq_of_cover 4 (result m c) (fun t _ => flushed_eq m c t) cover

end Cert.KernelIdeal.Grid

end
-- ==== Proof.KernelArrays.lean ====
/-
  The arrays the kernel's grid reads, as the host operations before it leave them.

  Before the grid runs, the program flattens the integer codes, wraps a negative code by 256, gathers the code book at
  them and lays the result out as a table of 16384 rows of 4096 codes; it lays the input out as 4096 rows of 4096 entries;
  and it lays the scales and the biases out as one row of 16384 each. On the extended reals the two roundings to a
  shorter float format are the identity.
-/
import proofs.«171381_j90589450207298_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Arrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The table of codes: the code book gathered at the integer codes (a negative one wrapped by 256), as 16384 rows of 4096. -/
def table (q : IVec S16384x4096 32) (code : FVec Ideal S256 .f32) : FVec Ideal S16384x4096 .f32 :=
  shapeCast S16384x4096
    (Host.gather gather_S256_S67108864x1_S67108864_n_0_n_n_0_1_1 code
      (broadcastInDim S67108864x1 ![0] bcast_S67108864_S67108864x1_0
        (select
          (cmpi .slt (shapeCast S67108864 q shapeCasts_S16384x4096_S67108864)
            (broadcastInDim S67108864 ![] bcast_S_S67108864 (constantI S_ 32 0#32)))
          (addi (shapeCast S67108864 q shapeCasts_S16384x4096_S67108864)
            (broadcastInDim S67108864 ![] bcast_S_S67108864 (constantI S_ 32 256#32)))
          (shapeCast S67108864 q shapeCasts_S16384x4096_S67108864))))
    shapeCasts_S67108864_S16384x4096

/-- The grid's first operand: the input as 4096 rows. -/
theorem V_rows (c : Dev nD) : (V m c main_v11 : FVec Ideal S4096x4096 .bf16)
    = (truncf (F := Ideal) .bf16 (shapeCast S4096x4096 (m ((c : Thread nD τ).loc main_arg0)) shapeCasts_S2x2048x4096_S4096x4096)
        bitsLt_bf16_f32 : FVec Ideal S4096x4096 .bf16) := by
  show StableHlo.after hostOps0 (fun b => m (c, b)) (Proc.devRef .tc main_v11) = _
  after_results
  rfl

/-- The grid's second operand: the table of codes. -/
theorem V_table (c : Dev nD) : (V m c main_v9 : FVec Ideal S16384x4096 .bf16)
    = (truncf (F := Ideal) .bf16 (table (m ((c : Thread nD τ).loc main_arg1)) (m ((c : Thread nD τ).loc main_arg3)))
        bitsLt_bf16_f32 : FVec Ideal S16384x4096 .bf16) := by
  show StableHlo.after hostOps0 (fun b => m (c, b)) (Proc.devRef .tc main_v9) = _
  after_results
  rfl

/-- The grid's third operand: the scales as one row. -/
theorem V_scales (c : Dev nD) : (V m c main_v12 : FVec Ideal S1x16384 .f32)
    = (shapeCast S1x16384 (m ((c : Thread nD τ).loc main_arg2)) shapeCasts_S16384_S1x16384 : FVec Ideal S1x16384 .f32) := by
  show StableHlo.after hostOps0 (fun b => m (c, b)) (Proc.devRef .tc main_v12) = _
  after_results
  rfl

/-- The grid's fourth operand: the biases as one row. -/
theorem V_biases (c : Dev nD) : (V m c main_v13 : FVec Ideal S1x16384 .f32)
    = (shapeCast S1x16384 (m ((c : Thread nD τ).loc main_arg4)) shapeCasts_S16384_S1x16384 : FVec Ideal S1x16384 .f32) := by
  show StableHlo.after hostOps0 (fun b => m (c, b)) (Proc.devRef .tc main_v13) = _
  after_results
  rfl

end Cert.KernelIdeal.Arrays

end
-- ==== Proof.KernelLayer.lean ====
/-
  The array the grid leaves, laid out as (b, s, o), is the scaled linear layer.

  The grid works on the input as 4096 rows (row 2048·b + s is the input at (b, s)) and on the scales and biases as one
  row each. Read through those layouts, entry (2048·b + s, o) of the grid's array,
      (Σ_k X[2048·b + s, k] · W[o, k]) · A[0, o] + B[0, o],
  is (Σ_k x[b, s, k] · w[o, k]) · a[o] + v[o]: the layer's entry at (b, s, o). No algebra is involved.
-/
import proofs.«171381_j90589450207298_2_alg».proof.Proof.KernelGrid
import proofs.«171381_j90589450207298_2_alg».proof.Proof.ScaledLinear
import Idealize.ShloMosaic.Lib.Pipeline.Value
import Idealize.ShloMosaic.Lib.ValueIdx
import Idealize.ShloMosaic.Lib.ValueLayout

noncomputable section

namespace Cert.KernelIdeal.Layer

open Cert.KernelIdeal Cert.KernelIdeal.Facts₀ Idealize.ShloMosaic Idealize.ShloMosaic.ValueIdx

/-- The grid's array of the laid-out arguments, laid out as (b, s, o), is the layer of the arguments. -/
theorem reshaped_rows (x : FVec Ideal S2x2048x4096 .f32) (w : FVec Ideal S16384x4096 .f32) (a v : FVec Ideal S16384 .f32) :
    (shapeCast S2x2048x16384
      (Cert.KernelIdeal.Grid.rows
        (truncf (F := Ideal) .bf16 (shapeCast S4096x4096 x shapeCasts_S2x2048x4096_S4096x4096) bitsLt_bf16_f32)
        (truncf (F := Ideal) .bf16 w bitsLt_bf16_f32)
        (shapeCast S1x16384 a shapeCasts_S16384_S1x16384) (shapeCast S1x16384 v shapeCasts_S16384_S1x16384))
      shapeCasts_S4096x16384_S2x2048x16384 : S2x2048x16384.Idx → EReal)
    = Cert.ScaledLinear.out x w a v := by
  funext i
  obtain ⟨b, s, o, rfl⟩ : ∃ (b : Fin 2) (s : Fin 2048) (o : Fin 16384), i = ix3 b s o := ⟨i 0, i 1, i 2, eq_ix3 i⟩
  have hb := b.isLt
  have hs := s.isLt
  rw [shapeCast_apply _ shapeCasts_S4096x16384_S2x2048x16384 (ix3 b s o)
    (ix2 (⟨b.val * 2048 + s.val, by omega⟩ : Fin 4096) o) (by
      rw [Shape.rowMajor_val_two, Shape.rowMajor_val_three]
      show (b.val * 2048 + s.val) * 16384 + o.val = (b.val * 2048 + s.val) * 16384 + o.val
      rfl)]
  show (∑ k : Fin 4096, shapeCast S4096x4096 x shapeCasts_S2x2048x4096_S4096x4096 (ix2 (⟨b.val * 2048 + s.val, by omega⟩ : Fin 4096) k)
        * w (ix2 o k)) * shapeCast S1x16384 a shapeCasts_S16384_S1x16384 (ix2 (0 : Fin 1) o)
      + shapeCast S1x16384 v shapeCasts_S16384_S1x16384 (ix2 (0 : Fin 1) o)
    = (∑ k : Fin 4096, x (ix3 b s k) * w (ix2 o k)) * a (ix1 o) + v (ix1 o)
  rw [shapeCast_a_1a_apply a _ 0 o, shapeCast_a_1a_apply v _ 0 o]
  refine congrArg (fun S => S * a (ix1 o) + v (ix1 o)) (Finset.sum_congr rfl fun k _ => ?_)
  refine congrArg (· * w (ix2 o k)) ?_
  exact shapeCast_apply x _ _ (ix3 b s k) (by
    rw [Shape.rowMajor_val_three, Shape.rowMajor_val_two]
    show (b.val * 2048 + s.val) * 4096 + k.val = (b.val * 2048 + s.val) * 4096 + k.val
    rfl)

end Cert.KernelIdeal.Layer

end
-- ==== Proof.KernelRun.lean ====
/-
  The kernel's program computes the scaled linear layer.

  After the grid the program lays its 4096 × 16384 array out as (b, s, o). The grid leaves that array at the function
  `rows` of the arrays it finds; those are the argument arrays laid out as rows; so the program's result is the layer
  of its arguments and of the table of codes gathered from them, whatever the arguments hold.
-/
import proofs.«171381_j90589450207298_2_alg».proof.Proof.KernelGrid
import proofs.«171381_j90589450207298_2_alg».proof.Proof.KernelArrays
import proofs.«171381_j90589450207298_2_alg».proof.Proof.KernelLayer
import Idealize.ShloMosaic.Lib.StableHlo.Run
import Idealize.ShloMosaic.Lib.Pipeline.FrameSuffix

noncomputable section

namespace Cert.KernelIdeal.Run

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The program's result buffer after the operation that follows the grid: the grid's array laid out as (b, s, o). -/
theorem tail_eq (c : Dev nD) :
    (Pipeline.afterTail₀ cfgs (dats m) 0 (V0 m) [hostOps1] c main_v15 : FVec Ideal S2x2048x16384 .f32)
      = (shapeCast S2x2048x16384 (Cert.KernelIdeal.Grid.result m c) shapeCasts_S4096x16384_S2x2048x16384
          : FVec Ideal S2x2048x16384 .f32) := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = Cert.KernelIdeal.Grid.result m c :=
    (Pipeline.withArrays_arr spec0 launch0.win.arr_inj c _ _ 4).trans (Cert.KernelIdeal.Grid.final m c)
  rw [e]
  rfl

/-- The layer the program computes, of its argument arrays. -/
abbrev layer (c : Dev nD) : FVec Ideal S2x2048x16384 .f32 :=
  Cert.ScaledLinear.out (m ((c.tc : Thread nD τ).loc main_arg0))
    (Cert.KernelIdeal.Arrays.table (m ((c.tc : Thread nD τ).loc main_arg1)) (m ((c.tc : Thread nD τ).loc main_arg3)))
    (m ((c.tc : Thread nD τ).loc main_arg2)) (m ((c.tc : Thread nD τ).loc main_arg4))

/-- The grid's array laid out as (b, s, o) is the layer of the arguments. -/
theorem result_layer (c : Dev nD) :
    (shapeCast S2x2048x16384 (Cert.KernelIdeal.Grid.result m c) shapeCasts_S4096x16384_S2x2048x16384
      : FVec Ideal S2x2048x16384 .f32) = layer m c := by
  show shapeCast S2x2048x16384 (Cert.KernelIdeal.Grid.rows (V m c main_v11) (V m c main_v9) (V m c main_v12) (V m c main_v13))
    shapeCasts_S4096x16384_S2x2048x16384 = _
  rw [Cert.KernelIdeal.Arrays.V_rows, Cert.KernelIdeal.Arrays.V_table, Cert.KernelIdeal.Arrays.V_scales,
    Cert.KernelIdeal.Arrays.V_biases]
  exact Cert.KernelIdeal.Layer.reshaped_rows _ _ _ _

/-- Every weakly fair execution of the program terminates with the result at the layer of the arguments and the
    arguments unchanged. -/
theorem run : θ_run defs (onTc (τ := τ) (main (F := Ideal))) ⟨m, fun _ => 0, ρ⟩ fun r => ∀ c : Dev nD,
      r.2.mem ((c.tc : Thread nD τ).loc main_v15) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans
        ((tail_eq m c).trans (result_layer m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  A linear layer over a weight matrix stored as integer codes: equivalence of a tiled kernel and its reference on the
  extended reals.

  Both programs look the integer codes up in a code book of 256 numbers (a negative code wrapped by 256, the lookup
  clamped into the book), which gives a table w[o, k] of 16384 rows of 4096 codes; row o has one scale a[o] and one
  bias v[o]. The reference scales every code and then multiplies:
      Σ_k x[b, s, k] · (w[o, k] · a[o]) + v[o].
  The kernel multiplies block by block over a 4 × 32 grid and scales each output column once, after the sum:
      (Σ_k x[b, s, k] · w[o, k]) · a[o] + v[o].
  A rounding to a shorter float format is the identity on the extended reals, and a product into a zero accumulator is
  the plain sum, so the kernel's result is the second formula exactly, for any argument values. The two formulas differ
  by moving the common factor a[o] out of the sum, which is valid over the real numbers; the precondition makes the
  input, the scales and the code book real, and every table entry is a code-book entry, hence real.

  The three frame claims are the generated frames of the two kernel programs and the reference's generated run; the
  idealization rewrote nothing.
-/
import proofs.«171381_j90589450207298_2_alg».proof.Defs
import proofs.«171381_j90589450207298_2_alg».proof.Proof.Gen.Kernel
import proofs.«171381_j90589450207298_2_alg».proof.Proof.Gen.Kernel.Skeleton
import proofs.«171381_j90589450207298_2_alg».proof.Proof.Gen.Kernel.Launch
import proofs.«171381_j90589450207298_2_alg».proof.Proof.Gen.Kernel.Points
import proofs.«171381_j90589450207298_2_alg».proof.Proof.Gen.Kernel.Frame
import proofs.«171381_j90589450207298_2_alg».proof.Proof.Gen.KernelIdeal
import proofs.«171381_j90589450207298_2_alg».proof.Proof.Gen.KernelIdeal.Skeleton
import proofs.«171381_j90589450207298_2_alg».proof.Proof.Gen.KernelIdeal.Launch
import proofs.«171381_j90589450207298_2_alg».proof.Proof.Gen.KernelIdeal.Points
import proofs.«171381_j90589450207298_2_alg».proof.Proof.Gen.KernelIdeal.Frame
import proofs.«171381_j90589450207298_2_alg».proof.Proof.Gen.ReferenceIdeal
import proofs.«171381_j90589450207298_2_alg».proof.Proof.Gen.ReferenceIdeal.Run
import proofs.«171381_j90589450207298_2_alg».proof.Proof.Gen.ReferenceIdeal.Read
import proofs.«171381_j90589450207298_2_alg».proof.Proof.Gen.Pre_finite_inputs
import proofs.«171381_j90589450207298_2_alg».proof.Proof.FiniteInputs
import proofs.«171381_j90589450207298_2_alg».proof.Proof.RefValue
import proofs.«171381_j90589450207298_2_alg».proof.Proof.KernelRun
import Idealize.ShloMosaic.Adequacy
import Idealize.ShloMosaic.Init

noncomputable section

namespace Cert.Proof

open Idealize.ShloMosaic Idealize.SL.Sem

/-- The two programs gather the same table of codes: the same operations of the integer codes and the code book. -/
theorem table_eq (q : IVec Cert.KernelIdeal.S16384x4096 32) (code : FVec Ideal Cert.KernelIdeal.S256 .f32) :
    Cert.KernelIdeal.Arrays.table q code = Cert.ReferenceIdeal.Read.val_main_v8 (F := Ideal) q code := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the scaled linear layer of the arguments: the kernel for any argument values, the reference
    once the input, the scales and the code book are real, which the precondition says. -/
theorem algebraic : Cert.algebraic_KernelIdeal_ReferenceIdeal := by
  intro m ρ m' ρ' hpre hagree
  refine ⟨fun c => Cert.KernelIdeal.Run.layer m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r2, r3, -⟩ := Cert.FiniteInputs.real_of_pre _ _ _ _ _ (hpre c)
  rw [Cert.ReferenceIdeal.Read.val_main_v15_eq, (hagree c).1, (hagree c).2.1, (hagree c).2.2.1, (hagree c).2.2.2.1,
    (hagree c).2.2.2.2]
  rw [Cert.ReferenceIdeal.RefValue.result_eq _ _ _ _ _ r0 r2 r3]
  show _ = Cert.ScaledLinear.out _ (Cert.KernelIdeal.Arrays.table _ _) _ _
  rw [table_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
